-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S384x8192 : Shape := ⟨2, ![384, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S384x8192, .f32⟩
  | .local _ .vmem, ⟨1, _⟩ => ⟨S384x8192, .f32⟩
  | .local _ .vmem, ⟨2, _⟩ => ⟨S384x8192, .f32⟩
  | .local _ .vmem, ⟨3, _⟩ => ⟨S384x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S384x8192_S384x8192_0_0 : ∀ a, (![0, 0] : Fin 2 → Nat) a + S384x8192.size a ≤ S384x8192.size a
  h_S384x8192 : 0 < S384x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S384x8192.size a < S8192x8192.size a
  hwx0_0 : ∀ i : grid0.Coords, EltTy.bits .f32 = 32 ∨ (Rect.unit (s := S8192x8192) (fun a => cc0_transform_0 i a * S384x8192.size a) (fun a => (Pipeline.Clip.of (cc0_transform_0 i a) (S384x8192.size a) (S8192x8192.size a)).extent (S384x8192.size a)) fun a => Pipeline.Clip.inb (Pipeline.Clip.ok_of (hstart0_0 i a))).WholeWords (EltTy.packing .f32)
  hwxs0_0 : ∀ i : grid0.Coords, EltTy.bits .f32 = 32 ∨ (Rect.unit (s := S384x8192) (fun _ => 0) (fun a => (Pipeline.Clip.of (cc0_transform_0 i a) (S384x8192.size a) (S8192x8192.size a)).extent (S384x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S384x8192.size a < S8192x8192.size a
  hwx0_1 : ∀ i : grid0.Coords, EltTy.bits .f32 = 32 ∨ (Rect.unit (s := S8192x8192) (fun a => cc0_transform_1 i a * S384x8192.size a) (fun a => (Pipeline.Clip.of (cc0_transform_1 i a) (S384x8192.size a) (S8192x8192.size a)).extent (S384x8192.size a)) fun a => Pipeline.Clip.inb (Pipeline.Clip.ok_of (hstart0_1 i a))).WholeWords (EltTy.packing .f32)
  hwxs0_1 : ∀ i : grid0.Coords, EltTy.bits .f32 = 32 ∨ (Rect.unit (s := S384x8192) (fun _ => 0) (fun a => (Pipeline.Clip.of (cc0_transform_1 i a) (S384x8192.size a) (S8192x8192.size a)).extent (S384x8192.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_arg0) S384x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S384x8192.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)

variable [Facts₀]

class Facts : Prop extends Facts₀ where

variable [Facts]
-- ==== Proof.KernelBody.lean ====
/-
  The frame of the kernel, and what it leaves in its result array, from the body up.

  The kernel walks the 8192 rows of its argument in 22 blocks of 384 rows, each the full 8192 columns wide.  Since
  22 · 384 = 8448 exceeds 8192, the last block (rows 8064 … 8447) overhangs the array: only its first 128 rows are
  inside.  The transfers of that block are cut to those 128 rows, and the staging buffer's remaining 256 rows then
  hold words nothing names.  At every block the body reads its whole input staging buffer — those unnamed rows
  too —, applies `min (((x + 1) · ¾)², 10)` to every element, and stores the result over the whole output staging
  buffer (a load of the output buffer precedes the store; its value is not used).

  Because the body works element by element, what it computes from the unnamed rows lands only in the output
  buffer's own unnamed rows, which the cut write-back never moves.  So the proof data describe each buffer on the
  rows the transfers move and fill the rest with a word of our choosing (zero): after the body the input buffer is
  the block of the argument, and the output buffer is the body's arithmetic applied to that.  Every window being
  allowed to differ off the moved rows, the body's obligation asks exactly this and no more.

  With the body's obligation the library's frame run gives: every weakly fair execution of the program terminates
  without a fault, the result array ends at what the write-backs, block after block, make of it (`arrAt`), and the
  argument array ends as it began.
-/
import proofs.«173714_j76166950028001_2_alg».proof.Proof.Gen.Kernel.Frame
import proofs.«173714_j76166950028001_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on two whole staging buffers -/

/-- The body's accesses start at row 0, column 0: the zero offsets, however spelt. -/
theorem offsets_zero : (![0, 0] : Fin 2 → Nat) = fun _ => 0 := funext fun a => by fin_cases a <;> rfl

/-- The body, run on an input buffer reading `x0` and an output buffer holding anything: it ends with the input
    buffer as it was and the output buffer holding the body's arithmetic (`k0_pay1`) of ALL of `x0` — one whole load,
    one whole store, so no prior contents of the output buffer survive. -/
theorem body_triple (c : Dev nD) (E : Set ℕ) (i : grid0.Coords)
    (arg1 : Memref sig .tc .vmem S384x8192 .f32) (harg1 : arg1.IsWhole)
    (arg2 : Memref sig .tc .vmem S384x8192 .f32) (harg2 : arg2.IsWhole)
    (x0 : Vec F S384x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__kernel i arg1 harg1 arg2 harg2) K := by
  simp only [cc0__kernel_eq_skeleton]; unfold cc0__kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  -- the one store covers the buffer, so what is read back is its payload; the load read the whole input buffer
  rw [View.read_writes_eq_canon _ _ _ (fun y => ⟨_, List.mem_singleton_self _, View.mem_set_unit_zero offsets_zero inb_S384x8192_S384x8192_0_0 y⟩),
    View.canon_unit_zero offsets_zero, View.readAt_eq_ld, View.ld_unit_zero (S := S384x8192) offsets_zero]

/-- The body's arithmetic is element by element: the result at an index depends on the input at that index alone. -/
theorem pay_apply (v w : Vec F S384x8192 .f32) (j : S384x8192.Idx) (h : v j = w j) : k0_pay1 v j = k0_pay1 w j := by
  unfold k0_pay1
  simp only [minimumf, mulf, addf, broadcast]
  rw [h]

variable (m : (ℓ : Loc nD τ sig) → Buf (Elt F) ℓ) (ρ : Dev nD → PrngReg)

/-! ## The proof data -/

/-- The argument's block at point `t` — its rows inside the array — laid in a buffer of the block's full size, the
    rows past the array's end (the last block's 256) filled with the zero word. -/
def argBlock (c : Dev nD) (t : Fin cfg0.N) : S384x8192.Idx → Elt F .f32 :=
  win0_0.fill (grid0.coords t) (fun _ => Scalar.ofBits .f32 0#32) (iblk m c 0 t)

/-- On the rows the transfers move it is the block. -/
theorem cut_argBlock (c : Dev nD) (t : Fin cfg0.N) : win0_0.cut (grid0.coords t) (argBlock m c t) = iblk m c 0 t :=
  win0_0.cut_fill _ _ _

/-- The proof data: the arrays as the region finds them; after the body at point `t` the input buffer at the
    argument's block and the output buffer at the body's arithmetic of it; the invariant the plain one (nothing is
    carried from point to point); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => argBlock m c t
    | ⟨1, _⟩ => k0_pay1 (argBlock m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = argBlock m c t := by dsimp only [dats]
theorem after_out (c : Dev nD) (t : Fin cfg0.N) : (dats m 0 c).after 1 t = k0_pay1 (argBlock m c t) := by dsimp only [dats]

/-- The input window is fetched at every point: the body finds the block on the moved rows and, elsewhere, whatever
    the buffer held (`d`). -/
theorem before_in (c : Dev nD) (t : Fin cfg0.N) (d) :
    (dats m 0 c).before 0 t d = win0_0.fill (grid0.coords t) d (iblk m c 0 t) := by
  rw [(dats m 0 c).before_fetched 0 t (fetch0_0 t) d]; rfl

/-- The output window is written back at every point: at each point its buffer holds contents nothing names. -/
theorem before_out (c : Dev nD) (t : Fin cfg0.N) (d) : (dats m 0 c).before 1 t d = d :=
  (dats m 0 c).before_out_reset 1 rfl t (by
    by_cases h : t.val = 0
    · exact .inl h
    · exact .inr ⟨h, flush0_1 _⟩) d

/-! ## The body's obligation -/

/-- At every point the body, handed the input buffer just fetched and the output buffer at anything, hands them
    back as the proof data say on the rows the transfers move — all the obligation asks of windows whose blocks may
    overhang. The input buffer is untouched. For the output buffer: element by element, the arithmetic of the fetched
    buffer and of `argBlock` agree wherever the two buffers do, which is on every moved row. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩⟩
  rw [before_in m c t d0, before_out m c t d1]
  iapply (body_triple (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_0.fill (grid0.coords t) d0 (iblk m c 0 t)) _)
  isplitl [H0]; · iexact H0
  isplitl [H1]; · iexists d1; iexact H1
  iintro ⟨H0, H1⟩
  isplitl [HΦ]; · iexact HΦ
  isplitl [Ho]; · iexact Ho
  have hcut : win0_1.cut (grid0.coords t) (k0_pay1 (win0_0.fill (grid0.coords t) d0 (iblk m c 0 t)))
      = win0_1.cut (grid0.coords t) ((dats m 0 c).after 1 t) := by
    rw [after_out]
    funext j
    exact pay_apply _ _ _ ((win0_0.fill_xinj _ _ _ j).trans (win0_0.fill_xinj _ _ _ j).symm)
  isplitl [H0]
  · iexists d0
    change _ ⊢ owns (c : Thread nD τ) (st0_0 t) fullShare (win0_0.fill (grid0.coords t) d0 (win0_0.cut (grid0.coords t) ((dats m 0 c).after 0 t)))
    rw [after_in, cut_argBlock]; try iexact H0
  · iexists k0_pay1 (win0_0.fill (grid0.coords t) d0 (iblk m c 0 t))
    change _ ⊢ owns (c : Thread nD τ) (st0_1 t) fullShare (win0_1.fill (grid0.coords t) (k0_pay1 (win0_0.fill (grid0.coords t) d0 (iblk m c 0 t))) (win0_1.cut (grid0.coords t) ((dats m 0 c).after 1 t)))
    rw [win0_1.fill_congr_cut (grid0.coords t) hcut]; try iexact H1

/-! ## The run and the frame -/

set_option backward.isDefEq.respectTransparency.types false in
/-- For any values, from any memory with zero counters: every weakly fair execution of the program terminates, no
    access faulting, with the result array at what the 22 write-backs make of it and every other array as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end and its argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.KernelIdealBody.lean ====
/-
  The frame of the kernel, and what it leaves in its result array, from the body up.

  The kernel walks the 8192 rows of its argument in 22 blocks of 384 rows, each the full 8192 columns wide.  Since
  22 · 384 = 8448 exceeds 8192, the last block (rows 8064 … 8447) overhangs the array: only its first 128 rows are
  inside.  The transfers of that block are cut to those 128 rows, and the staging buffer's remaining 256 rows then
  hold words nothing names.  At every block the body reads its whole input staging buffer — those unnamed rows
  too —, applies `min (((x + 1) · ¾)², 10)` to every element, and stores the result over the whole output staging
  buffer (a load of the output buffer precedes the store; its value is not used).

  Because the body works element by element, what it computes from the unnamed rows lands only in the output
  buffer's own unnamed rows, which the cut write-back never moves.  So the proof data describe each buffer on the
  rows the transfers move and fill the rest with a word of our choosing (zero): after the body the input buffer is
  the block of the argument, and the output buffer is the body's arithmetic applied to that.  Every window being
  allowed to differ off the moved rows, the body's obligation asks exactly this and no more.

  With the body's obligation the library's frame run gives: every weakly fair execution of the program terminates
  without a fault, the result array ends at what the write-backs, block after block, make of it (`arrAt`), and the
  argument array ends as it began.
-/
import proofs.«173714_j76166950028001_2_alg».proof.Proof.Gen.KernelIdeal.Frame
import proofs.«173714_j76166950028001_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on two whole staging buffers -/

/-- The body's accesses start at row 0, column 0: the zero offsets, however spelt. -/
theorem offsets_zero : (![0, 0] : Fin 2 → Nat) = fun _ => 0 := funext fun a => by fin_cases a <;> rfl

/-- The body, run on an input buffer reading `x0` and an output buffer holding anything: it ends with the input
    buffer as it was and the output buffer holding the body's arithmetic (`k0_pay1`) of ALL of `x0` — one whole load,
    one whole store, so no prior contents of the output buffer survive. -/
theorem body_triple (c : Dev nD) (E : Set ℕ) (i : grid0.Coords)
    (arg1 : Memref sig .tc .vmem S384x8192 .f32) (harg1 : arg1.IsWhole)
    (arg2 : Memref sig .tc .vmem S384x8192 .f32) (harg2 : arg2.IsWhole)
    (x0 : Vec F S384x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__kernel i arg1 harg1 arg2 harg2) K := by
  simp only [cc0__kernel_eq_skeleton]; unfold cc0__kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  -- the one store covers the buffer, so what is read back is its payload; the load read the whole input buffer
  rw [View.read_writes_eq_canon _ _ _ (fun y => ⟨_, List.mem_singleton_self _, View.mem_set_unit_zero offsets_zero inb_S384x8192_S384x8192_0_0 y⟩),
    View.canon_unit_zero offsets_zero, View.readAt_eq_ld, View.ld_unit_zero (S := S384x8192) offsets_zero]

/-- The body's arithmetic is element by element: the result at an index depends on the input at that index alone. -/
theorem pay_apply (v w : Vec F S384x8192 .f32) (j : S384x8192.Idx) (h : v j = w j) : k0_pay1 v j = k0_pay1 w j := by
  unfold k0_pay1
  simp only [minimumf, mulf, addf, broadcast]
  rw [h]

variable (m : (ℓ : Loc nD τ sig) → Buf (Elt F) ℓ) (ρ : Dev nD → PrngReg)

/-! ## The proof data -/

/-- The argument's block at point `t` — its rows inside the array — laid in a buffer of the block's full size, the
    rows past the array's end (the last block's 256) filled with the zero word. -/
def argBlock (c : Dev nD) (t : Fin cfg0.N) : S384x8192.Idx → Elt F .f32 :=
  win0_0.fill (grid0.coords t) (fun _ => Scalar.ofBits .f32 0#32) (iblk m c 0 t)

/-- On the rows the transfers move it is the block. -/
theorem cut_argBlock (c : Dev nD) (t : Fin cfg0.N) : win0_0.cut (grid0.coords t) (argBlock m c t) = iblk m c 0 t :=
  win0_0.cut_fill _ _ _

/-- The proof data: the arrays as the region finds them; after the body at point `t` the input buffer at the
    argument's block and the output buffer at the body's arithmetic of it; the invariant the plain one (nothing is
    carried from point to point); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => argBlock m c t
    | ⟨1, _⟩ => k0_pay1 (argBlock m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = argBlock m c t := by dsimp only [dats]
theorem after_out (c : Dev nD) (t : Fin cfg0.N) : (dats m 0 c).after 1 t = k0_pay1 (argBlock m c t) := by dsimp only [dats]

/-- The input window is fetched at every point: the body finds the block on the moved rows and, elsewhere, whatever
    the buffer held (`d`). -/
theorem before_in (c : Dev nD) (t : Fin cfg0.N) (d) :
    (dats m 0 c).before 0 t d = win0_0.fill (grid0.coords t) d (iblk m c 0 t) := by
  rw [(dats m 0 c).before_fetched 0 t (fetch0_0 t) d]; rfl

/-- The output window is written back at every point: at each point its buffer holds contents nothing names. -/
theorem before_out (c : Dev nD) (t : Fin cfg0.N) (d) : (dats m 0 c).before 1 t d = d :=
  (dats m 0 c).before_out_reset 1 rfl t (by
    by_cases h : t.val = 0
    · exact .inl h
    · exact .inr ⟨h, flush0_1 _⟩) d

/-! ## The body's obligation -/

/-- At every point the body, handed the input buffer just fetched and the output buffer at anything, hands them
    back as the proof data say on the rows the transfers move — all the obligation asks of windows whose blocks may
    overhang. The input buffer is untouched. For the output buffer: element by element, the arithmetic of the fetched
    buffer and of `argBlock` agree wherever the two buffers do, which is on every moved row. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩⟩
  rw [before_in m c t d0, before_out m c t d1]
  iapply (body_triple (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_0.fill (grid0.coords t) d0 (iblk m c 0 t)) _)
  isplitl [H0]; · iexact H0
  isplitl [H1]; · iexists d1; iexact H1
  iintro ⟨H0, H1⟩
  isplitl [HΦ]; · iexact HΦ
  isplitl [Ho]; · iexact Ho
  have hcut : win0_1.cut (grid0.coords t) (k0_pay1 (win0_0.fill (grid0.coords t) d0 (iblk m c 0 t)))
      = win0_1.cut (grid0.coords t) ((dats m 0 c).after 1 t) := by
    rw [after_out]
    funext j
    exact pay_apply _ _ _ ((win0_0.fill_xinj _ _ _ j).trans (win0_0.fill_xinj _ _ _ j).symm)
  isplitl [H0]
  · iexists d0
    change _ ⊢ owns (c : Thread nD τ) (st0_0 t) fullShare (win0_0.fill (grid0.coords t) d0 (win0_0.cut (grid0.coords t) ((dats m 0 c).after 0 t)))
    rw [after_in, cut_argBlock]; try iexact H0
  · iexists k0_pay1 (win0_0.fill (grid0.coords t) d0 (iblk m c 0 t))
    change _ ⊢ owns (c : Thread nD τ) (st0_1 t) fullShare (win0_1.fill (grid0.coords t) (k0_pay1 (win0_0.fill (grid0.coords t) d0 (iblk m c 0 t))) (win0_1.cut (grid0.coords t) ((dats m 0 c).after 1 t)))
    rw [win0_1.fill_congr_cut (grid0.coords t) hcut]; try iexact H1

/-! ## The run and the frame -/

set_option backward.isDefEq.respectTransparency.types false in
/-- For any values, from any memory with zero counters: every weakly fair execution of the program terminates, no
    access faulting, with the result array at what the 22 write-backs make of it and every other array as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end and its argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.Spec.lean ====
/-
  The function both programs compute, one element at a time.

  For a float `x` the result is `min (((x + 1) · ¾) · ((x + 1) · ¾), 10)`: add one, scale by three quarters,
  square (as the product of the scaled value with itself), and clamp from above at ten.  The three constants are
  kept as their binary words (1.0, 0.75 and 10.0 are all exact in binary32, so nothing is rounded away by reading
  them as words), and the operations are those of the float instance `F`, whichever it is: nothing here depends on
  the instance, so the same definition serves the bit-level reading and the reading over the extended reals.

  The array form `clampSqAll` applies it at every index of an array of any shape.
-/
import Idealize.ShloMosaic.PureOps

noncomputable section

namespace Cert.ClampSq

open Idealize.ShloMosaic

variable {F : FTy → Type} [FloatOps F]

/-- One element: `min (((x + 1) · ¾)², 10)`, the square written as a product. -/
def clampSq (x : F .f32) : F .f32 :=
  FloatOps.minimumf
    (FloatOps.mulf
      (FloatOps.mulf (FloatOps.addf x (FloatOps.ofBits .f32 0x3F800000#32)) (FloatOps.ofBits .f32 0x3F400000#32))
      (FloatOps.mulf (FloatOps.addf x (FloatOps.ofBits .f32 0x3F800000#32)) (FloatOps.ofBits .f32 0x3F400000#32)))
    (FloatOps.ofBits .f32 0x41200000#32)

/-- The whole array: `clampSq` at every index. -/
def clampSqAll {s : Shape} (x : s.Idx → F .f32) : s.Idx → F .f32 := fun i => clampSq (x i)

theorem clampSqAll_apply {s : Shape} (x : s.Idx → F .f32) (i : s.Idx) : clampSqAll x i = clampSq (x i) := rfl

end Cert.ClampSq

end
-- ==== Proof.KernelIdealResult.lean ====
/-
  The kernel's result array after the run, in closed form: `clampSq` of the argument array at every index.

  Point `t` of the 22 writes back rows `384·t …` of its output buffer onto the result array — all 384 of them for
  `t < 21`, the first 128 for `t = 21`, whose block would otherwise pass the array's last row 8191.  On those rows the
  output buffer holds the body's arithmetic of the argument's block, element by element, and the two windows walk
  their arrays alike (one block shape, one index map), so what point `t` writes back is block `t` of the whole-array
  function `clampSqAll` of the argument.  The blocks' rows 0…383, 384…767, …, 8064…8191 together are all 8192 rows
  (row `r` lies in block `r / 384`), every block spans all columns, and so the result array ends holding that
  function everywhere.
-/
import proofs.«173714_j76166950028001_2_alg».proof.Proof.KernelIdealBody
import proofs.«173714_j76166950028001_2_alg».proof.Proof.Spec

set_option maxRecDepth 16384

noncomputable section

namespace Cert.KernelIdeal.Result

open Cert.KernelIdeal Cert.KernelIdeal.Gen Cert.KernelIdeal.Body Cert.ClampSq
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The body's arithmetic at an index is `clampSq` of the input there. -/
theorem pay_eq (v : Vec F S384x8192 .f32) (j : S384x8192.Idx) : k0_pay1 v j = clampSq (v j) := rfl

/-- Where the output's blocks sit, decided over the 22 points: block `t` starts at row `384·t` and column 0, spans all
    8192 columns, and has 384 rows inside the array before the last point and 128 at it. -/
theorem block_facts : ∀ t : Fin cfg0.N, win0_1.index t (0 : Fin 2) = t.val ∧ win0_1.index t (1 : Fin 2) = 0
    ∧ win0_1.xsize (grid0.coords t) (1 : Fin 2) = 8192
    ∧ (t.val < 21 → win0_1.xsize (grid0.coords t) (0 : Fin 2) = 384)
    ∧ (t.val = 21 → win0_1.xsize (grid0.coords t) (0 : Fin 2) = 128) :=
  (by decide +kernel : ∀ t : Fin grid0.N, _)

/-- What point `t` writes back is block `t` of `clampSqAll` of the argument array as the region finds it. -/
theorem flushed_eq (c : Dev nD) (t : Fin cfg0.N) :
    (dats m 0 c).flushed 1 t
      = ((cfg0.win 1).blk t).view.read (Elt F) (clampSqAll (s := S8192x8192) (V m c main_arg0)) := by
  show (cfg0.win 1).cut (grid0.coords t) ((dats m 0 c).after 1 t) = _
  rw [after_out]
  funext j
  show k0_pay1 (argBlock m c t) (win0_1.xinj (grid0.coords t) j) = _
  rw [pay_eq]
  have e : argBlock m c t (win0_1.xinj (grid0.coords t) j) = iblk m c 0 t j := win0_0.fill_xinj _ _ _ j
  rw [e]
  rfl

/-- An index of the array is in point `t`'s block iff each coordinate is in the block's range inside the array. -/
theorem mem_blk (t : Fin cfg0.N) (i : S8192x8192.Idx) :
    i ∈ ((cfg0.win 1).blk t).view.set ↔ ∀ a : Fin 2, win0_1.index t a * S384x8192.size a ≤ (i a).val
      ∧ (i a).val < win0_1.index t a * S384x8192.size a + win0_1.xsize (grid0.coords t) a := by
  show i ∈ ((View.whole main_v0).slice (win0_1.rect t)).set ↔ _
  rw [View.set_slice_whole, Rect.mem_set_unit]
  exact Iff.rfl

/-- Every index of the result array is in some point's block: row `r` in block `r / 384`. -/
theorem covered (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  have hN : cfg0.N = 22 := N_0
  refine ⟨⟨(i 0).val / 384, by rw [hN]; omega⟩, flush0_1 _, ?_⟩
  rw [mem_blk]
  obtain ⟨e0, e1, e2, e3, e4⟩ := block_facts ⟨(i 0).val / 384, by rw [hN]; omega⟩
  intro a
  match a with
  | ⟨0, _⟩ =>
    show win0_1.index _ (0 : Fin 2) * 384 ≤ (i 0).val ∧ (i 0).val < win0_1.index _ (0 : Fin 2) * 384 + win0_1.xsize _ (0 : Fin 2)
    rw [e0]
    by_cases hq : (i 0).val / 384 < 21
    · rw [e3 hq]; dsimp only; omega
    · have hq' : (i 0).val / 384 = 21 := by omega
      rw [e4 hq']; dsimp only; omega
  | ⟨1, _⟩ =>
    show win0_1.index _ (1 : Fin 2) * 8192 ≤ (i 1).val ∧ (i 1).val < win0_1.index _ (1 : Fin 2) * 8192 + win0_1.xsize _ (1 : Fin 2)
    rw [e1, e2]; omega

/-- The result array after the run: `clampSq` of the argument array, at every index. -/
theorem final (c : Dev nD) :
    (dats m 0 c).arrAt 1 cfg0.N = clampSqAll (s := S8192x8192) (m ((c : Thread nD τ).loc main_arg0)) := by
  rw [← V_main_arg0 m c]
  exact (dats m 0 c).arrAt_eq_of_cover 1 _ (fun t _ => flushed_eq m c t) covered

/-- The run, read: every weakly fair execution terminates with the result array at `clampSq` of the argument array
    everywhere, and the argument array as it began. -/
theorem run : θ_run defs (onTc (τ := τ) (main (F := F))) ⟨m, fun _ => 0, ρ⟩ fun r => ∀ c : Dev nD,
      r.2.mem ((c.tc : Thread nD τ).loc main_v0) = clampSqAll (s := S8192x8192) (m ((c.tc : Thread nD τ).loc main_arg0))
      ∧ r.2.mem ((c.tc : Thread nD τ).loc main_arg0) = m ((c.tc : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Result

end
-- ==== Proof.RefValue.lean ====
/-
  The reference, read back one operation at a time: its result array is `clampSq` of its argument array at every
  index.  The three scalar constants are broadcast to the array's shape, so at an index each is just its word; the
  add, the two products and the minimum are taken index by index; what is left is `clampSq` of the argument's
  element, literally.  Nothing is used of the float instance, so the statement holds at any.
-/
import proofs.«173714_j76166950028001_2_alg».proof.Proof.Gen.ReferenceIdeal.Read
import proofs.«173714_j76166950028001_2_alg».proof.Proof.Spec

noncomputable section

namespace Cert.ReferenceIdeal.RefValue

open Cert.ReferenceIdeal Cert.ReferenceIdeal.Read Idealize.ShloMosaic Cert.ClampSq

variable {F : FTy → Type} [FloatOps F]

/-- The last stage of the reference — the minimum with ten of the square of `(x + 1) · ¾` — is `clampSq` at every
    index of the argument array. -/
theorem stage_eq (x0 : (⟨S8192x8192, .f32⟩ : BufTy).Contents (Elt F)) :
    val_main_v6 (F := F) x0 = clampSqAll (s := S8192x8192) x0 := by
  funext i
  rw [val_main_v6_apply, val_main_v4_apply, val_main_v3_apply, val_main_v1_apply, val_main_v5_apply,
    val_main_v2_apply, val_main_v0_apply, val_main_cst_apply, val_main_cst_0_apply, val_main_cst_1_apply]
  rfl

end Cert.ReferenceIdeal.RefValue

end
-- ==== Proof.lean ====
/-
  The five claims, assembled.

  Both programs compute, at every index of an 8192 × 8192 array of floats, `min (((x + 1) · ¾)², 10)` of the
  argument's element there (`Cert.ClampSq.clampSq`): the same three operations with the same three constants, the
  square written on both sides as the product of `(x + 1) · ¾` with itself.  The kernel does it block by block —
  22 blocks of 384 rows, the last one cut to the 128 rows that are inside the array — and the reference on the whole
  array at once.  Element by element the two are literally one expression, so no law of arithmetic is needed to join
  them, and the precondition (finite inputs) is never opened: the equality holds for every extended real.

  * The kernel's frame, at the word level and over the extended reals: the body's obligation at every block, then
    the library's frame run (`KernelBody`, `KernelIdealBody`).
  * The reference's frame: its run, read back, with the result dropped.
  * Nothing was rewritten in idealizing the kernel, so there is nothing to preserve.
  * The value: the kernel's result array ends at `clampSq` of its argument everywhere (`KernelIdealResult`: what
    each block writes back, and that the blocks cover the array), the reference's likewise (`RefValue`), and the
    arguments agree.
-/
import proofs.«173714_j76166950028001_2_alg».proof.Defs
import proofs.«173714_j76166950028001_2_alg».proof.Proof.Gen.Kernel
import proofs.«173714_j76166950028001_2_alg».proof.Proof.Gen.KernelIdeal
import proofs.«173714_j76166950028001_2_alg».proof.Proof.Gen.ReferenceIdeal
import proofs.«173714_j76166950028001_2_alg».proof.Proof.Gen.Pre_finite_inputs
import proofs.«173714_j76166950028001_2_alg».proof.Proof.KernelBody
import proofs.«173714_j76166950028001_2_alg».proof.Proof.KernelIdealResult
import proofs.«173714_j76166950028001_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its argument array as it was. -/
theorem frame_kernel : Cert.frame_Kernel := fun m ρ _ => Cert.Kernel.Body.frame (F := Bits) m ρ

/-- So does the kernel read over the extended reals. -/
theorem frame_kernelIdeal : Cert.frame_KernelIdeal := fun m ρ _ => Cert.KernelIdeal.Body.frame (F := Ideal) m ρ

/-- The reference is ten whole-array operations in a row: it runs to the end and never writes its argument. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the result array at `clampSq` of the argument at every
    index. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.stage_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
